-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S8192x1024 : Shape := ⟨2, ![8192, 1024]⟩
abbrev S_ : Shape := ⟨0, ![]⟩
abbrev S1024x1024 : Shape := ⟨2, ![1024, 1024]⟩
abbrev S512x1024 : Shape := ⟨2, ![512, 1024]⟩
abbrev S1024x1 : Shape := ⟨2, ![1024, 1]⟩
abbrev S1024x512 : Shape := ⟨2, ![1024, 512]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8192x1024, .bf16⟩
  | .hbm, ⟨8, _⟩ => ⟨S8192x1024, .bf16⟩
  | .hbm, ⟨9, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1, .f32⟩
  | .local _ .vmem, ⟨9, _⟩ => ⟨S1024x1, .f32⟩
  | .local _ .vmem, ⟨10, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v40 : BitVec 1 := Scalar.cmpi .eq arg1 c15_i32
  let v41 : BitVec 32 := Scalar.extui v40
  let c0_i32_23 : BitVec 32 := 0#32
  let v42 : BitVec 1 := Scalar.cmpi .ne v41 c0_i32_23
  v42

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192x1024 : S_.BroadcastsInDim S8192x1024 (![] : Fin 0 → Fin S8192x1024.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .bf16 = 32 ∨ (Rect.block (s := S8192x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .f32 = 32 ∨ (Rect.block (s := S8192x1024) S1024x1024.size (cc0_transform_3 i) (hinb0_3 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x8192 : Shape := ⟨2, ![1024, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x8192, .f32⟩
  | .hbm, ⟨4, _⟩ => ⟨S8192x8192, .f32⟩
  | .hbm, ⟨5, _⟩ => ⟨S_, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S8192x1, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S8192x8192, .f32⟩
  | .hbm, ⟨22, _⟩ => ⟨S8192x8192, .f32⟩
  | .hbm, ⟨23, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S8192x1024_S1024x8192_1_0 : S8192x1024.Transposes [1, 0] S1024x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KernelPieces.lean ====
/-
  What one grid point of the attention kernel leaves in its three carried scratch buffers (the running reference
  level, the running normalizer, the running weighted sum) and, at the last key block, in the output block — each as
  the body's arithmetic applied to the point's input blocks and to what the scratch held before.

  Three kinds of point: the first key block of a query block (the scratch is reset to -inf, 0, 0 and then updated, so the
  update reads the reset values), a middle block (the update reads what the previous point left), and the last block
  (the same update, then the output block is the quotient of the new weighted sum by the new normalizer).
-/
import proofs.«163977_j39032662786718_2_alg».proof.Proof.Gen.KernelIdeal.Frame
import Idealize.ShloMosaic.Lib.Pipeline.Value
import Idealize.ShloMosaic.Lib.Tactic

set_option maxRecDepth 16384

noncomputable section
open Idealize.ShloMosaic Idealize.ShloMosaic.TcCoe Idealize.SL.Sem
namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- The new reference level: the old one joined with the block's row maxima. -/
abbrev newLevel (x0 : Vec F S1024x1024 .bf16) (x1 : Vec F S512x1024 .bf16) (m0 : Vec F S1024x1 .f32) : Vec F S1024x1 .f32 :=
  k0_pay2 (k0_pay8 x0 x1 m0)
/-- The new normalizer: the old one rescaled plus the block's row sums of weights. -/
abbrev newNorm (x0 : Vec F S1024x1024 .bf16) (x1 : Vec F S512x1024 .bf16) (m0 l0 : Vec F S1024x1 .f32) : Vec F S1024x1 .f32 :=
  k0_pay11 x0 x1 m0 m0 l0
/-- The new weighted sum: the old one rescaled plus the block's weights times the value block. -/
abbrev newAcc (x0 : Vec F S1024x1024 .bf16) (x1 x2 : Vec F S512x1024 .bf16) (m0 : Vec F S1024x1 .f32) (a0 : Vec F S1024x1024 .f32) : Vec F S1024x1024 .f32 :=
  k0_pay1 (k0_pay12 x0 x1 x2 m0 m0 a0)

/-- First key block: the reference level after the point, the update applied to the reset values. -/
theorem first_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond0_0 i) (hc1 : ¬cond0_1 i) (x0 : Vec F S1024x1024 .bf16) (x1 : Vec F S512x1024 .bf16) (x2 : Vec F S512x1024 .bf16) :
    sout0_A_0 c i arg2 harg2 arg3 harg3 arg4 harg4 arg5 harg5 arg6 harg6 arg7 harg7 arg8 harg8 hc0 hc1 x0 x1 x2 = newLevel x0 x1 k0_pay4 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readCov_unit_zero (S := S1024x1) _ hz, View.readCov_unit_zero (S := S1024x1024) _ hz, View.readAt_eq_ld, harg2.read_unread, harg3.read_unread, harg4.read_unread, harg6.read_unread, harg7.read_unread, harg8.read_unread, View.ld_unit_zero (S := S1024x1024) hz, View.ld_unit_zero (S := S512x1024) hz, View.ld_unit_zero (S := S1024x1) hz]

/-- First key block: the normalizer after the point, the update applied to the reset values. -/
theorem first_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond0_0 i) (hc1 : ¬cond0_1 i) (x0 : Vec F S1024x1024 .bf16) (x1 : Vec F S512x1024 .bf16) (x2 : Vec F S512x1024 .bf16) :
    sout0_A_1 c i arg2 harg2 arg3 harg3 arg4 harg4 arg5 harg5 arg6 harg6 arg7 harg7 arg8 harg8 hc0 hc1 x0 x1 x2 = newNorm x0 x1 k0_pay4 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readCov_unit_zero (S := S1024x1) _ hz, View.readCov_unit_zero (S := S1024x1024) _ hz, View.readAt_eq_ld, harg2.read_unread, harg3.read_unread, harg4.read_unread, harg6.read_unread, harg7.read_unread, harg8.read_unread, View.ld_unit_zero (S := S1024x1024) hz, View.ld_unit_zero (S := S512x1024) hz, View.ld_unit_zero (S := S1024x1) hz]

/-- First key block: the weighted sum after the point, the update applied to the reset values. -/
theorem first_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond0_0 i) (hc1 : ¬cond0_1 i) (x0 : Vec F S1024x1024 .bf16) (x1 : Vec F S512x1024 .bf16) (x2 : Vec F S512x1024 .bf16) :
    sout0_A_2 c i arg2 harg2 arg3 harg3 arg4 harg4 arg5 harg5 arg6 harg6 arg7 harg7 arg8 harg8 hc0 hc1 x0 x1 x2 = newAcc x0 x1 x2 k0_pay4 k0_pay6 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1024) hz]
  simp only [View.readCov_unit_zero (S := S1024x1) _ hz, View.readCov_unit_zero (S := S1024x1024) _ hz, View.readAt_eq_ld, harg2.read_unread, harg3.read_unread, harg4.read_unread, harg6.read_unread, harg7.read_unread, harg8.read_unread, View.ld_unit_zero (S := S1024x1024) hz, View.ld_unit_zero (S := S512x1024) hz, View.ld_unit_zero (S := S1024x1) hz]

/-- A middle key block: the reference level after the point, the update applied to what the previous point left. -/
theorem middle_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond0_0 i) (hc1 : ¬cond0_1 i) (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout0_B_0 c i arg2 harg2 arg3 harg3 arg4 harg4 arg5 harg5 arg6 harg6 arg7 harg7 arg8 harg8 hc0 hc1 x0 x1 x2 xs0 xs1 xs2 = newLevel x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S1024x1024) hz, View.ld_unit_zero (S := S512x1024) hz, View.ld_unit_zero (S := S1024x1) hz]

/-- A middle key block: the normalizer after the point, the update applied to what the previous point left. -/
theorem middle_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond0_0 i) (hc1 : ¬cond0_1 i) (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout0_B_1 c i arg2 harg2 arg3 harg3 arg4 harg4 arg5 harg5 arg6 harg6 arg7 harg7 arg8 harg8 hc0 hc1 x0 x1 x2 xs0 xs1 xs2 = newNorm x0 x1 xs0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S1024x1024) hz, View.ld_unit_zero (S := S512x1024) hz, View.ld_unit_zero (S := S1024x1) hz]

/-- A middle key block: the weighted sum after the point, the update applied to what the previous point left. -/
theorem middle_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond0_0 i) (hc1 : ¬cond0_1 i) (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout0_B_2 c i arg2 harg2 arg3 harg3 arg4 harg4 arg5 harg5 arg6 harg6 arg7 harg7 arg8 harg8 hc0 hc1 x0 x1 x2 xs0 xs1 xs2 = newAcc x0 x1 x2 xs0 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread, View.ld_unit_zero (S := S1024x1024) hz, View.ld_unit_zero (S := S512x1024) hz, View.ld_unit_zero (S := S1024x1) hz]

/-- The last key block: the reference level after the point, the same update. -/
theorem last_0 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond0_0 i) (hc1 : cond0_1 i) (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout0_C_0 c i arg2 harg2 arg3 harg3 arg4 harg4 arg5 harg5 arg6 harg6 arg7 harg7 arg8 harg8 hc0 hc1 x0 x1 x2 xs0 xs1 xs2 = newLevel x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readCov_unit_zero (S := S1024x1) _ hz, View.readCov_unit_zero (S := S1024x1024) _ hz, View.readAt_eq_ld, harg2.read_unread, harg3.read_unread, harg4.read_unread, harg6.read_unread, harg7.read_unread, harg8.read_unread, View.ld_unit_zero (S := S1024x1024) hz, View.ld_unit_zero (S := S512x1024) hz, View.ld_unit_zero (S := S1024x1) hz]

/-- The last key block: the normalizer after the point, the same update. -/
theorem last_1 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond0_0 i) (hc1 : cond0_1 i) (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout0_C_1 c i arg2 harg2 arg3 harg3 arg4 harg4 arg5 harg5 arg6 harg6 arg7 harg7 arg8 harg8 hc0 hc1 x0 x1 x2 xs0 xs1 xs2 = newNorm x0 x1 xs0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readCov_unit_zero (S := S1024x1) _ hz, View.readCov_unit_zero (S := S1024x1024) _ hz, View.readAt_eq_ld, harg2.read_unread, harg3.read_unread, harg4.read_unread, harg6.read_unread, harg7.read_unread, harg8.read_unread, View.ld_unit_zero (S := S1024x1024) hz, View.ld_unit_zero (S := S512x1024) hz, View.ld_unit_zero (S := S1024x1) hz]

/-- The last key block: the weighted sum after the point, the same update. -/
theorem last_2 (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond0_0 i) (hc1 : cond0_1 i) (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    sout0_C_2 c i arg2 harg2 arg3 harg3 arg4 harg4 arg5 harg5 arg6 harg6 arg7 harg7 arg8 harg8 hc0 hc1 x0 x1 x2 xs0 xs1 xs2 = newAcc x0 x1 x2 xs0 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readCov_unit_zero (S := S1024x1) _ hz, View.readCov_unit_zero (S := S1024x1024) _ hz, View.readAt_eq_ld, harg2.read_unread, harg3.read_unread, harg4.read_unread, harg6.read_unread, harg7.read_unread, harg8.read_unread, View.ld_unit_zero (S := S1024x1024) hz, View.ld_unit_zero (S := S512x1024) hz, View.ld_unit_zero (S := S1024x1) hz]

/-- The last key block: the output block is the new weighted sum divided, row by row, by the new normalizer. -/
theorem last_out (c : Dev nD) (i : grid0.Coords) (arg2 : Memref sig .tc .vmem S1024x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond0_0 i) (hc1 : cond0_1 i) (x0 : Vec F S1024x1024 .bf16) (x1 : Vec F S512x1024 .bf16) (x2 : Vec F S512x1024 .bf16) (xs0 : Vec F S1024x1 .f32) (xs1 : Vec F S1024x1 .f32) (xs2 : Vec F S1024x1024 .f32) :
    out0_C_3 c i arg2 harg2 arg3 harg3 arg4 harg4 arg5 harg5 arg6 harg6 arg7 harg7 arg8 harg8 hc0 hc1 x0 x1 x2 xs0 xs1 xs2 = k0_pay3 (newAcc x0 x1 x2 xs0 xs2) (newNorm x0 x1 xs0 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readCov_unit_zero (S := S1024x1) _ hz, View.readCov_unit_zero (S := S1024x1024) _ hz, View.readAt_eq_ld, harg2.read_unread, harg3.read_unread, harg4.read_unread, harg6.read_unread, harg7.read_unread, harg8.read_unread, View.ld_unit_zero (S := S1024x1024) hz, View.ld_unit_zero (S := S512x1024) hz, View.ld_unit_zero (S := S1024x1) hz]

end Cert.KernelIdeal.Pieces
end
-- ==== Proof.KernelPoints.lean ====
/-
  What the carried scratch and the output's staging buffer hold after each grid point of the attention kernel, in
  terms of the update functions: at the first key block of a query block the update is applied to the reset values
  (-inf, 0, 0); at every later block to what the previous point left; and at the last block the output's buffer
  holds the quotient of the new weighted sum by the new normalizer.
-/
import proofs.«163977_j39032662786718_2_alg».proof.Proof.KernelPieces

set_option maxRecDepth 16384

noncomputable section
open Idealize.ShloMosaic Idealize.ShloMosaic.TcCoe Idealize.SL.Sem
namespace Cert.KernelIdeal.Points
open Cert.KernelIdeal Cert.KernelIdeal.Gen Cert.KernelIdeal.Pieces

variable {F : FTy → Type} [FloatOps F]
variable (m : (ℓ : Loc nD τ sig) → Buf (Elt F) ℓ)

/-- After the first key block of a query block. -/
theorem outs_first (c : Dev nD) (t : Fin cfg0.N) (h0 : t.val % 16 = 0) :
    (outsAt0 m c t.val t.isLt).2.1 = newLevel (iblk m c 0 t) (iblk m c 1 t) k0_pay4
    ∧ (outsAt0 m c t.val t.isLt).2.2.1 = newNorm (iblk m c 0 t) (iblk m c 1 t) k0_pay4 k0_pay5
    ∧ (outsAt0 m c t.val t.isLt).2.2.2 = newAcc (iblk m c 0 t) (iblk m c 1 t) (iblk m c 2 t) k0_pay4 k0_pay6 := by
  have h1 : ¬t.val % 16 = 15 := by omega
  rw [outsAt0_A m c t h0 h1]
  dsimp only
  exact ⟨first_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    first_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    first_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)⟩

/-- After a later key block: the update of what the previous point left; at the last block also the output. -/
theorem outs_next (c : Dev nD) (t : Fin cfg0.N) (h0 : ¬t.val % 16 = 0) :
    (outsAt0 m c t.val t.isLt).2.1 = newLevel (iblk m c 0 t) (iblk m c 1 t) (outsAt0 m c (t.val - 1) (Nat.lt_of_le_of_lt (Nat.sub_le _ _) t.isLt)).2.1
    ∧ (outsAt0 m c t.val t.isLt).2.2.1 = newNorm (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1
    ∧ (outsAt0 m c t.val t.isLt).2.2.2 = newAcc (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2
    ∧ (t.val % 16 = 15 → (outsAt0 m c t.val t.isLt).1
        = k0_pay3 (newAcc (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.2)
            (newNorm (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1)) := by
  by_cases h1 : t.val % 16 = 15
  · rw [outsAt0_C m c t h0 h1]
    dsimp only
    exact ⟨last_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      last_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      last_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      fun _ => last_out c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩
  · rw [outsAt0_B m c t h0 h1]
    dsimp only
    exact ⟨middle_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      middle_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      middle_2 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      fun h => absurd h h1⟩

end Cert.KernelIdeal.Points
end
-- ==== Proof.LibContractLast.lean ====
/-
  A matrix product that contracts the LAST axis of both operands, read at an entry, generic in the sizes.

  For an `A × K` left operand and a `B × K` right operand the product's entry `(i, j)` is the sum over the
  contracted coordinate `k` of `l (i, k) · r (j, k)` — the left operand times the transpose of the right one. Over
  the extended reals this holds of the host's `dot_general` with these dimension numbers (`dotLast_apply`) and of the
  kernel's matrix product accumulated into a zero constant (`matmulLast_zero_apply`), whatever the operands' float
  formats: at the ideal values a change of format is the identity and the accumulator `0` is the neutral element.
-/
import Idealize.ShloMosaic.Lib.ValueIdx
import Idealize.ShloMosaic.PureOps.Ideal.Laws

noncomputable section

open scoped BigOperators

namespace Cert.LibContractLast

open Idealize.ShloMosaic Idealize.ShloMosaic.ValueIdx

/-- The dimension numbers of the product of an `A × K` matrix with the transpose of a `B × K` matrix: axis 1 of each
    operand contracted, no batch axes. -/
abbrev lastDims (A K B : Nat)
    (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ where
  lhsContracting := [1]
  rhsContracting := [1]
  lhsNonContracting := [0]
  rhsNonContracting := [0]
  lhsBatch := []
  rhsBatch := []
  wf := wf

/-- The sum over the contraction index of these dimension numbers, at the entry `(i, j)`, is the sum over the
    shared last coordinate `k` of the left operand at `(i, k)` times the right operand at `(j, k)`. -/
theorem contraction_eq {α : Type} [AddCommMonoid α] [Mul α] (A K B : Nat)
    (wf : DotDims.WF ⟨2, ![A, K]⟩ ⟨2, ![B, K]⟩ ⟨2, ![A, B]⟩ [1] [1] [0] [0] [] [])
    (l : (⟨2, ![A, K]⟩ : Shape).Idx → α) (r : (⟨2, ![B, K]⟩ : Shape).Idx → α) (i : Fin A) (j : Fin B) :
    ∑ q : (lastDims A K B wf).contr.Idx,
        l ((lastDims A K B wf).lhsIdx (ix2 i j) q) * r ((lastDims A K B wf).rhsIdx (ix2 i j) q)
      = ∑ k : Fin K, l (ix2 i k) * r (ix2 j k) := by
  rw [← Equiv.sum_comp (contrEquiv1 (lastDims A K B wf) K rfl rfl).symm]
  refine Finset.sum_congr rfl fun c _ => ?_
  have c2 := contrEquiv1_symm_val (lastDims A K B wf) K rfl rfl c
  have l2 : (lastDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (lastDims A K B wf).rhsIdx (ix2 i j) ((contrEquiv1 _ K rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- THE HOST'S PRODUCT read at `(i, j)`, over the extended reals. -/
theorem dotLast_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    Host.dotGeneral (lastDims A K B wf) prec l r (ix2 i j) = ∑ k : Fin K, l (ix2 i k) * r (ix2 j k) := by
  show FloatOps.dotGeneral _ prec _ l r (ix2 i j) = _
  rw [Ideal.dotGeneral_apply]
  exact contraction_eq A K B wf l r i j

/-- THE KERNEL'S PRODUCT INTO A ZERO ACCUMULATOR read at `(i, j)`, over the extended reals: the same sum. -/
theorem matmulLast_zero_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    FloatOps.matmul (lastDims A K B wf) prec l r (constant (F := Ideal) ⟨2, ![A, B]⟩ .f32 0x00000000#32) (ix2 i j)
      = ∑ k : Fin K, l (ix2 i k) * r (ix2 j k) := by
  rw [Ideal.matmul_constant_zero_apply]
  exact contraction_eq A K B wf l r i j

end Cert.LibContractLast

end
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.KernelBody.lean ====
/-
  The attention kernel's body, one operation group at a time, read at an entry over the extended reals.

  For a query block `x0` (1024 rows), a key block `x1` and a value block `x2` (512 rows each), the reference level
  `m0`, normalizer `l0` (one column each) and weighted sum `a0` carried from the previous key block:
  the scores are the dot products of query rows with key rows; the new level is the old one joined with the row's
  largest score; the weights are exp (score - new level); the rescaling factor is exp (old level - new level);
  the new normalizer is factor * old + the row's sum of weights; the new weighted sum is factor * old + weights times
  the value block; and the output block is the weighted sum over the normalizer.
-/
import proofs.«163977_j39032662786718_2_alg».proof.Proof.Gen.KernelIdeal.Skeleton
import proofs.«163977_j39032662786718_2_alg».proof.Proof.LibContractLast
import proofs.«163977_j39032662786718_2_alg».proof.Proof.LibContractPlain
import proofs.«163977_j39032662786718_2_alg».proof.Proof.LibLayout
import Idealize.ShloMosaic.Lib.ValueIdx
import Idealize.ShloMosaic.Lib.Pipeline.Value
import Idealize.ShloMosaic.PureOps.Ideal.Laws

set_option maxRecDepth 16384

noncomputable section
open Idealize.ShloMosaic Idealize.ShloMosaic.ValueIdx
namespace Cert.KernelIdeal.Body
open Cert.KernelIdeal Cert.KernelIdeal.Gen

variable (x0 : Vec Ideal S1024x1024 .bf16) (x1 x2 : Vec Ideal S512x1024 .bf16)
  (m0 l0 : Vec Ideal S1024x1 .f32) (a0 : Vec Ideal S1024x1024 .f32)

/-- A score: the dot product of query row `r` with key row `jj`. -/
theorem scores_apply (r : Fin 1024) (jj : Fin 512) :
    k0_pay7 (F := Ideal) x0 x1 (ix2 r jj) = ∑ k : Fin 1024, x0 (ix2 r k) * x1 (ix2 jj k) := by
  unfold k0_pay7
  simp only [shapeCast_self]
  exact Cert.LibContractLast.matmulLast_zero_apply 1024 1024 512 _ none x0 x1 r jj

/-- Inserting key position `jj` into the reduced row index `r` gives the entry `(r, jj)`. -/
theorem lift_row (h : S1024x512.Reduces [1] S1024) (r : Fin 1024) (jj : Fin 512) :
    h.lift (ix1 r) jj = ix2 r jj := by
  funext a
  match a with
  | ⟨0, _⟩ => rfl
  | ⟨1, _⟩ => rfl

/-- The new level of row `r`: the old level joined with the maximum (from -inf) of the row's scores. -/
theorem level_apply (r : Fin 1024) (u : Fin 1) :
    k0_pay8 (F := Ideal) x0 x1 m0 (ix2 r u)
      = max (m0 (ix2 r u)) ((Finset.univ : Finset (Fin 512)).fold max (Ideal.ofBits .f32 0xFF800000#32)
          (fun jj => k0_pay7 (F := Ideal) x0 x1 (ix2 r jj))) := by
  unfold k0_pay8
  refine (maximumf_apply _ _ _).trans ?_
  refine congrArg (max (m0 (ix2 r u))) ?_
  refine (Cert.Attn.Layout.shapeCast_a_a1_apply _ _ r u).trans ?_
  refine (Ideal.multiReduction_maximumf_single _ _ _ _ _ _).trans ?_
  refine congrArg (Finset.fold max (Ideal.ofBits .f32 0xFF800000#32) · Finset.univ) ?_
  funext jj
  exact congrArg (k0_pay7 (F := Ideal) x0 x1) (lift_row _ r jj)

/-- The rescaling factor of row `r`. -/
theorem factor_apply (r : Fin 1024) (u : Fin 1) :
    k0_pay9 (F := Ideal) x0 x1 m0 m0 (ix2 r u) = Ideal.exp (m0 (ix2 r u) - k0_pay8 (F := Ideal) x0 x1 m0 (ix2 r u)) := rfl

/-- A weight: exp (score - new level of the row). -/
theorem weight_apply (r : Fin 1024) (jj : Fin 512) :
    k0_pay10 (F := Ideal) x0 x1 m0 (ix2 r jj)
      = Ideal.exp (k0_pay7 (F := Ideal) x0 x1 (ix2 r jj) - k0_pay8 (F := Ideal) x0 x1 m0 (ix2 r (0 : Fin 1))) := by
  unfold k0_pay10
  show Ideal.exp (k0_pay7 x0 x1 (ix2 r jj) - broadcastTo S1024x512 (k0_pay8 x0 x1 m0) _ (ix2 r jj)) = _
  rw [Cert.Attn.Layout.broadcastTo_a1_ab_apply]

/-- The new normalizer of row `r`. -/
theorem norm_apply (r : Fin 1024) (u : Fin 1) :
    k0_pay11 (F := Ideal) x0 x1 m0 m0 l0 (ix2 r u)
      = k0_pay9 (F := Ideal) x0 x1 m0 m0 (ix2 r u) * l0 (ix2 r u) + ∑ jj : Fin 512, k0_pay10 (F := Ideal) x0 x1 m0 (ix2 r jj) := by
  unfold k0_pay11
  simp only [shapeCast_self]
  show k0_pay9 x0 x1 m0 m0 (ix2 r u) * l0 (ix2 r u) + shapeCast S1024x1 _ _ (ix2 r u) = _
  congr 1
  refine (Cert.Attn.Layout.shapeCast_a_a1_apply _ _ r u).trans ?_
  refine (Ideal.multiReduction_add_single _ _ _ _ _ _).trans ?_
  refine Finset.sum_congr rfl fun jj _ => ?_
  exact congrArg (k0_pay10 (F := Ideal) x0 x1 m0) (lift_row _ r jj)

/-- The new weighted sum at `(r, d)`. -/
theorem acc_apply (r : Fin 1024) (d : Fin 1024) :
    k0_pay12 (F := Ideal) x0 x1 x2 m0 m0 a0 (ix2 r d)
      = k0_pay9 (F := Ideal) x0 x1 m0 m0 (ix2 r (0 : Fin 1)) * a0 (ix2 r d)
        + ∑ jj : Fin 512, k0_pay10 (F := Ideal) x0 x1 m0 (ix2 r jj) * x2 (ix2 jj d) := by
  unfold k0_pay12
  simp only [shapeCast_self]
  show broadcastTo S1024x1024 (k0_pay9 x0 x1 m0 m0) _ (ix2 r d) * a0 (ix2 r d) + _ = _
  rw [Cert.Attn.Layout.broadcastTo_a1_ab_apply]
  congr 1
  exact Cert.LibContractPlain.matmulPlain_zero_apply (φ₁ := .bf16) (φ₂ := .bf16) 1024 512 1024 _ none
    (truncf .bf16 (k0_pay10 (F := Ideal) x0 x1 m0) bitsLt_bf16_f32) x2 r d

/-- The output block at `(r, d)`: the weighted sum over the row's normalizer. -/
theorem out_apply (acc : Vec Ideal S1024x1024 .f32) (l : Vec Ideal S1024x1 .f32) (r : Fin 1024) (d : Fin 1024) :
    k0_pay3 (F := Ideal) acc l (ix2 r d) = Ideal.div (acc (ix2 r d)) (l (ix2 r (0 : Fin 1))) := by
  unfold k0_pay3
  show Ideal.div (acc (ix2 r d)) (broadcastTo S1024x1024 l _ (ix2 r d)) = _
  rw [Cert.Attn.Layout.broadcastTo_a1_ab_apply]

end Cert.KernelIdeal.Body
end
-- ==== Proof.LibFiniteAssoc.lean ====
/-
  Finite reals inside the extended reals: sums, and the associativity of a triple product.

  A finite sum of reals computed in the extended reals is the real sum (`coe_sum_real`). Hence a triple product
  of arrays whose entries are all reals can be re-associated inside the extended reals (`assoc_fin`):
  the sum over l of (the sum over k of a k * w k l) * v l is the sum over k of a k * (the sum over l of
  w k l * v l). Without finiteness this fails: distributivity does not hold at the infinities. This is the law
  that lets a weight be folded into the next one before a matrix product.
-/
import Mathlib.Data.EReal.Operations
import Mathlib.Algebra.BigOperators.Ring.Finset
import Mathlib.Algebra.BigOperators.Group.Finset.Sigma

noncomputable section

namespace Cert.LibFiniteAssoc

open Finset

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- Associativity of a triple product of finite reals inside the extended reals:
`∑ l, (∑ k, a k * w k l) * v l = ∑ k, a k * ∑ l, w k l * v l` when every entry is a real. -/
theorem assoc_fin {K L : Nat} (a : Fin K → EReal) (w : Fin K → Fin L → EReal) (v : Fin L → EReal)
    (ha : ∀ k, ∃ r : ℝ, a k = (r : EReal)) (hw : ∀ k l, ∃ r : ℝ, w k l = (r : EReal))
    (hv : ∀ l, ∃ r : ℝ, v l = (r : EReal)) :
    ∑ l : Fin L, (∑ k : Fin K, a k * w k l) * v l = ∑ k : Fin K, a k * ∑ l : Fin L, w k l * v l := by
  choose a' ha' using ha
  choose w' hw' using hw
  choose v' hv' using hv
  obtain rfl : a = fun k => (a' k : EReal) := funext ha'
  obtain rfl : w = fun k l => (w' k l : EReal) := funext fun k => funext fun l => hw' k l
  obtain rfl : v = fun l => (v' l : EReal) := funext hv'
  simp only [← EReal.coe_mul, coe_sum_real]
  congr 1
  simp only [Finset.sum_mul, Finset.mul_sum, mul_assoc]
  exact Finset.sum_comm

end Cert.LibFiniteAssoc

end
-- ==== Proof.KernelStep.lean ====
/-
  One key block of the streaming softmax on blocks whose entries are reals.

  When the query, key and value blocks hold reals, every score is a real; the new reference level of a row — the old
  level (a real, or -inf before the first block) joined with the row's largest score — is a real; and if the old
  normalizer and weighted sum are reals `L`, `A` and the rescaling factor exp (old level - new level) is the real `α`
  (`0` when the old level is -inf), the new normalizer is `α * L + ∑ exp (score - new level)` and the new weighted sum
  `α * A + ∑ exp (score - new level) * value`. The output entry is the real quotient when the normalizer is not zero.
-/
import proofs.«163977_j39032662786718_2_alg».proof.Proof.KernelBody
import proofs.«163977_j39032662786718_2_alg».proof.Proof.LibFiniteAssoc
import Mathlib.Analysis.SpecialFunctions.Exp

set_option maxRecDepth 16384

noncomputable section
open Idealize.ShloMosaic Idealize.ShloMosaic.ValueIdx
namespace Cert.KernelIdeal.Step
open Cert.KernelIdeal Cert.KernelIdeal.Gen Cert.KernelIdeal.Body

/-- The bit pattern of -inf is the bottom of the extended reals. -/
theorem ofBits_neg_inf : Ideal.ofBits .f32 0xFF800000#32 = ⊥ := by simp [Ideal.ofBits, Ideal.ieee]

/-- The larger of two reals, inside the extended reals. -/
theorem max_coe (a b : ℝ) : max (a : EReal) (b : EReal) = ((max a b : ℝ) : EReal) := by
  rcases le_total a b with h | h
  · rw [max_eq_right h, max_eq_right (EReal.coe_le_coe_iff.2 h)]
  · rw [max_eq_left h, max_eq_left (EReal.coe_le_coe_iff.2 h)]

/-- A maximum, started from -inf, of finitely many reals is -inf only over no terms, and otherwise a real. -/
theorem fold_max_coe {ι : Type*} (s : Finset ι) (f : ι → ℝ) :
    (s.fold max (⊥ : EReal) (fun j => ((f j : ℝ) : EReal)) = ⊥ ∧ s = ∅)
      ∨ ∃ R : ℝ, s.fold max (⊥ : EReal) (fun j => ((f j : ℝ) : EReal)) = (R : EReal) := by
  classical
  induction s using Finset.induction_on with
  | empty => exact Or.inl ⟨Finset.fold_empty, rfl⟩
  | insert a s ha ih =>
    right
    rw [Finset.fold_insert ha]
    rcases ih with ⟨h, _⟩ | ⟨R, h⟩
    · exact ⟨f a, by rw [h]; exact max_eq_left bot_le⟩
    · exact ⟨max (f a) R, by rw [h, max_coe]⟩

variable (x0 : Vec Ideal S1024x1024 .bf16) (x1 x2 : Vec Ideal S512x1024 .bf16)
  (m0 l0 : Vec Ideal S1024x1 .f32) (a0 : Vec Ideal S1024x1024 .f32)
variable (Qr : Fin 1024 → Fin 1024 → ℝ) (Kr Vr : Fin 512 → Fin 1024 → ℝ)

/-- The real score of query row `r` against key row `jj` of the blocks. -/
def sc (r : Fin 1024) (jj : Fin 512) : ℝ := ∑ k : Fin 1024, Qr r k * Kr jj k

theorem score_real (hq : ∀ r k, x0 (ix2 r k) = ((Qr r k : ℝ) : EReal)) (hk : ∀ jj k, x1 (ix2 jj k) = ((Kr jj k : ℝ) : EReal))
    (r : Fin 1024) (jj : Fin 512) :
    k0_pay7 (F := Ideal) x0 x1 (ix2 r jj) = ((sc Qr Kr r jj : ℝ) : EReal) := by
  rw [scores_apply]; unfold sc
  rw [← Cert.LibFiniteAssoc.coe_sum_real]
  exact Finset.sum_congr rfl fun k _ => by rw [hq, hk, EReal.coe_mul]

/-- The new level of a row is a real, whether the old one is -inf or a real. -/
theorem level_real (hq : ∀ r k, x0 (ix2 r k) = ((Qr r k : ℝ) : EReal)) (hk : ∀ jj k, x1 (ix2 jj k) = ((Kr jj k : ℝ) : EReal))
    (r : Fin 1024) (hm : m0 (ix2 r (0 : Fin 1)) = ⊥ ∨ ∃ M : ℝ, m0 (ix2 r (0 : Fin 1)) = (M : EReal)) :
    ∃ M' : ℝ, k0_pay8 (F := Ideal) x0 x1 m0 (ix2 r (0 : Fin 1)) = (M' : EReal) := by
  rw [level_apply, ofBits_neg_inf]
  have hf : (fun jj => k0_pay7 (F := Ideal) x0 x1 (ix2 r jj)) = fun jj => ((sc Qr Kr r jj : ℝ) : EReal) :=
    funext fun jj => score_real x0 x1 Qr Kr hq hk r jj
  rw [hf]
  rcases fold_max_coe (Finset.univ : Finset (Fin 512)) (sc Qr Kr r) with ⟨_, he⟩ | ⟨R, hR⟩
  · exact absurd he (Finset.univ_nonempty (α := Fin 512)).ne_empty
  · rw [hR]
    rcases hm with h | ⟨M, h⟩
    · rw [h]; exact ⟨R, max_eq_right bot_le⟩
    · rw [h]; exact ⟨max M R, max_coe M R⟩

/-- A weight of the block, as a real. -/
theorem weight_real (hq : ∀ r k, x0 (ix2 r k) = ((Qr r k : ℝ) : EReal)) (hk : ∀ jj k, x1 (ix2 jj k) = ((Kr jj k : ℝ) : EReal))
    (r : Fin 1024) (M' : ℝ) (hM' : k0_pay8 (F := Ideal) x0 x1 m0 (ix2 r (0 : Fin 1)) = (M' : EReal)) (jj : Fin 512) :
    k0_pay10 (F := Ideal) x0 x1 m0 (ix2 r jj) = ((Real.exp (sc Qr Kr r jj - M') : ℝ) : EReal) := by
  rw [weight_apply, score_real x0 x1 Qr Kr hq hk, hM', ← EReal.coe_sub, Ideal.exp_coe]

/-- The new normalizer of a row, as a real. -/
theorem norm_real (hq : ∀ r k, x0 (ix2 r k) = ((Qr r k : ℝ) : EReal)) (hk : ∀ jj k, x1 (ix2 jj k) = ((Kr jj k : ℝ) : EReal))
    (r : Fin 1024) (M' α L : ℝ) (hM' : k0_pay8 (F := Ideal) x0 x1 m0 (ix2 r (0 : Fin 1)) = (M' : EReal))
    (hα : Ideal.exp (m0 (ix2 r (0 : Fin 1)) - (M' : EReal)) = (α : EReal)) (hl : l0 (ix2 r (0 : Fin 1)) = (L : EReal)) :
    k0_pay11 (F := Ideal) x0 x1 m0 m0 l0 (ix2 r (0 : Fin 1))
      = ((α * L + ∑ jj : Fin 512, Real.exp (sc Qr Kr r jj - M') : ℝ) : EReal) := by
  rw [norm_apply, factor_apply, hM', hα, hl]
  rw [Finset.sum_congr rfl fun jj _ => weight_real x0 x1 m0 Qr Kr hq hk r M' hM' jj]
  rw [Cert.LibFiniteAssoc.coe_sum_real, ← EReal.coe_mul, ← EReal.coe_add]

/-- The new weighted sum at an entry, as a real. -/
theorem acc_real (hq : ∀ r k, x0 (ix2 r k) = ((Qr r k : ℝ) : EReal)) (hk : ∀ jj k, x1 (ix2 jj k) = ((Kr jj k : ℝ) : EReal))
    (hv : ∀ jj d, x2 (ix2 jj d) = ((Vr jj d : ℝ) : EReal))
    (r d : Fin 1024) (M' α A : ℝ) (hM' : k0_pay8 (F := Ideal) x0 x1 m0 (ix2 r (0 : Fin 1)) = (M' : EReal))
    (hα : Ideal.exp (m0 (ix2 r (0 : Fin 1)) - (M' : EReal)) = (α : EReal)) (ha : a0 (ix2 r d) = (A : EReal)) :
    k0_pay12 (F := Ideal) x0 x1 x2 m0 m0 a0 (ix2 r d)
      = ((α * A + ∑ jj : Fin 512, Real.exp (sc Qr Kr r jj - M') * Vr jj d : ℝ) : EReal) := by
  rw [acc_apply, factor_apply, hM', hα, ha]
  rw [Finset.sum_congr rfl fun jj _ => by rw [weight_real x0 x1 m0 Qr Kr hq hk r M' hM' jj, hv, ← EReal.coe_mul]]
  rw [Cert.LibFiniteAssoc.coe_sum_real, ← EReal.coe_mul, ← EReal.coe_add]

/-- The output entry: a real weighted sum over a nonzero real normalizer is their real quotient. -/
theorem out_real (acc : Vec Ideal S1024x1024 .f32) (l : Vec Ideal S1024x1 .f32) (r d : Fin 1024) (A' L' : ℝ)
    (hA : acc (ix2 r d) = (A' : EReal)) (hL : l (ix2 r (0 : Fin 1)) = (L' : EReal)) (hL0 : L' ≠ 0) :
    k0_pay3 (F := Ideal) acc l (ix2 r d) = ((A' / L' : ℝ) : EReal) := by
  rw [out_apply, hA, hL, Ideal.div_coe hL0, ← EReal.coe_mul, mul_one_div]

end Cert.KernelIdeal.Step
end
-- ==== Proof.AttentionSpec.lean ====
/-
  Dense softmax attention over 8192 queries and keys of width 1024, as one function of the three argument arrays.

  For arrays whose entries are reals, the score of query `i` against key `j` is the dot product of row `i` of `q`
  scaled by 1/32 (= 1 / sqrt 1024) with row `j` of `k`, and output entry `(i, d)` is the softmax-weighted average over
  the keys of column `d` of `v`: `(∑ j, exp (score i j) * v j d) / (∑ j, exp (score i j))`.
  Rows are numbered by natural numbers (zero past the last row), so that sums over blocks of keys carry no bounds.
-/
import Idealize.ShloMosaic.PureOps.Ideal
import Idealize.ShloMosaic.Lib.ValueIdx
import Mathlib.Analysis.SpecialFunctions.Exp

noncomputable section

namespace Attn

open Idealize.ShloMosaic Idealize.ShloMosaic.ValueIdx

/-- The arrays' shape. -/
abbrev SArr : Shape := ⟨2, ![8192, 1024]⟩

/-- Every entry of the array is a real number (neither infinity). -/
def IsReal (x : SArr.Idx → EReal) : Prop := ∀ idx, x idx = ((x idx).toReal : EReal)

/-- Entry `(i, c)` of an array as a real, rows numbered by naturals; zero past the last row. -/
def rowsN (x : SArr.Idx → EReal) (i : ℕ) (c : Fin 1024) : ℝ :=
  if h : i < 8192 then (x (ix2 (⟨i, h⟩ : Fin 8192) c)).toReal else 0

theorem rowsN_coe {x : SArr.Idx → EReal} (hx : IsReal x) (i : Fin 8192) (c : Fin 1024) :
    x (ix2 i c) = ((rowsN x i.val c : ℝ) : EReal) := by
  unfold rowsN; rw [dif_pos i.isLt]; exact hx _

/-- The scaled score of query `i` against key `j`. -/
def score (q k : SArr.Idx → EReal) (i j : ℕ) : ℝ :=
  ∑ c : Fin 1024, rowsN q i c * (1 / 32) * rowsN k j c

/-- Output entry `(i, d)`: the softmax-weighted average of column `d` of `v`. -/
def attn (q k v : SArr.Idx → EReal) (i : ℕ) (d : Fin 1024) : ℝ :=
  (∑ j : Fin 8192, Real.exp (score q k i j.val) * rowsN v j.val d) / (∑ j : Fin 8192, Real.exp (score q k i j.val))

/-- The attention output as an array of extended reals. -/
def G (q k v : SArr.Idx → EReal) : SArr.Idx → EReal :=
  fun idx => ((attn q k v (idx 0).val (idx 1) : ℝ) : EReal)

theorem G_apply (q k v : SArr.Idx → EReal) (i : Fin 8192) (d : Fin 1024) :
    G q k v (ix2 i d) = ((attn q k v i.val d : ℝ) : EReal) := rfl

end Attn

end
-- ==== Proof.KernelBlocks.lean ====
/-
  The blocks the attention kernel's grid points read, as pieces of the three argument arrays.

  Grid point `t` (of 128) works on query block `t / 16` (rows `(t / 16) * 1024 + r`) and key/value block `t % 16`
  (rows `(t % 16) * 512 + jj`). The kernel is handed the query array already multiplied by 1/32, and the key and
  value arrays as they are (changes of float format are the identity on the extended reals). So, when the arrays'
  entries are reals, the query block's entry `(r, k)` is the real `q ((t/16)*1024 + r, k) * (1/32)`, and the key and value
  blocks' entries are the reals `k ((t%16)*512 + jj, c)`, `v ((t%16)*512 + jj, d)`.
-/
import proofs.«163977_j39032662786718_2_alg».proof.Proof.Gen.KernelIdeal.Frame
import proofs.«163977_j39032662786718_2_alg».proof.Proof.AttentionSpec
import Idealize.ShloMosaic.Lib.StableHlo.Run
import Idealize.ShloMosaic.Lib.Pipeline.Value
import Idealize.ShloMosaic.Lib.ValueIdx

set_option maxRecDepth 16384

noncomputable section
open Idealize.ShloMosaic Idealize.ShloMosaic.TcCoe Idealize.SL.Sem Idealize.ShloMosaic.ValueIdx
namespace Cert.KernelIdeal.Blocks
open Cert.KernelIdeal Cert.KernelIdeal.Gen

variable (m : (ℓ : Loc nD τ sig) → Buf (Elt Ideal) ℓ)

/-- The three argument arrays of the kernel, as arrays of extended reals. -/
abbrev argQ (c : Dev nD) : Attn.SArr.Idx → EReal := m ((c : Thread nD τ).loc main_arg0)
abbrev argK (c : Dev nD) : Attn.SArr.Idx → EReal := m ((c : Thread nD τ).loc main_arg1)
abbrev argV (c : Dev nD) : Attn.SArr.Idx → EReal := m ((c : Thread nD τ).loc main_arg2)

/-- The printed index maps over the grid: windows 0 and 3 follow the query block `t / 16`, windows 1 and 2 the key
    block `t % 16`; all start at column 0. -/
theorem idx_facts : ∀ t : Fin cfg0.N, win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = t.val / 16 ∧ win0_3.index t (1 : Fin 2) = 0 :=
  (by decide +kernel : ∀ t : Fin grid0.N, _)

/-- The scale the query array is multiplied by is the real 1/32. -/
theorem ofBits_scale : Ideal.ofBits .f32 0x3D000000#32 = ((1 / 32 : ℝ) : EReal) := by
  simp [Ideal.ofBits, Ideal.ieee, -EReal.coe_mul]; norm_num

/-- The array window 0 stages: the query array times the scale, entry by entry. -/
theorem V_q (c : Dev nD) : (V m c main_v2 : S8192x1024.Idx → EReal)
    = fun i => argQ m c i * Ideal.ofBits .f32 0x3D000000#32 := by
  dsimp only [Gen.V, Gen.hostOps0]; after_results; rfl

/-- The array window 1 stages: the key array. -/
theorem V_k (c : Dev nD) : (V m c main_v3 : S8192x1024.Idx → EReal) = argK m c := by
  dsimp only [Gen.V, Gen.hostOps0]; after_results; rfl

/-- The array window 2 stages: the value array. -/
theorem V_v (c : Dev nD) : (V m c main_v4 : S8192x1024.Idx → EReal) = argV m c := by
  dsimp only [Gen.V, Gen.hostOps0]; after_results; rfl

theorem row_lt (t : Fin cfg0.N) (r : Fin 1024) : t.val / 16 * 1024 + r.val < 8192 := by
  have h := lt_of_lt_of_eq t.isLt (show cfg0.N = 128 from N_0); have := r.isLt; omega

theorem key_lt (t : Fin cfg0.N) (jj : Fin 512) : t.val % 16 * 512 + jj.val < 8192 := by
  have := jj.isLt; omega

/-- The query block of point `t` at `(r, k)`. -/
theorem blk_q (c : Dev nD) (t : Fin cfg0.N) (r k : Fin 1024) :
    (iblk m c 0 t : Vec Ideal S1024x1024 .bf16) (ix2 r k)
      = argQ m c (ix2 (⟨t.val / 16 * 1024 + r.val, row_lt t r⟩ : Fin 8192) k) * Ideal.ofBits .f32 0x3D000000#32 := by
  obtain ⟨e0, e1, -⟩ := idx_facts t
  unfold iblk
  rw [View.read_apply]
  refine (congrFun (V_q m c) _).trans ?_
  show argQ m c _ * _ = _
  congr 2
  funext a; apply Fin.ext
  match a with
  | ⟨0, _⟩ => show win0_0.index t (0 : Fin 2) * 1024 + 1 * r.val = t.val / 16 * 1024 + r.val; rw [e0]; omega
  | ⟨1, _⟩ => show win0_0.index t (1 : Fin 2) * 1024 + 1 * k.val = k.val; rw [e1]; omega

/-- The key block of point `t` at `(jj, k)`. -/
theorem blk_k (c : Dev nD) (t : Fin cfg0.N) (jj : Fin 512) (k : Fin 1024) :
    (iblk m c 1 t : Vec Ideal S512x1024 .bf16) (ix2 jj k)
      = argK m c (ix2 (⟨t.val % 16 * 512 + jj.val, key_lt t jj⟩ : Fin 8192) k) := by
  obtain ⟨-, -, e0, e1, -⟩ := idx_facts t
  unfold iblk
  rw [View.read_apply]
  refine (congrFun (V_k m c) _).trans ?_
  congr 1
  funext a; apply Fin.ext
  match a with
  | ⟨0, _⟩ => show win0_1.index t (0 : Fin 2) * 512 + 1 * jj.val = t.val % 16 * 512 + jj.val; rw [e0]; omega
  | ⟨1, _⟩ => show win0_1.index t (1 : Fin 2) * 1024 + 1 * k.val = k.val; rw [e1]; omega

/-- The value block of point `t` at `(jj, d)`. -/
theorem blk_v (c : Dev nD) (t : Fin cfg0.N) (jj : Fin 512) (d : Fin 1024) :
    (iblk m c 2 t : Vec Ideal S512x1024 .bf16) (ix2 jj d)
      = argV m c (ix2 (⟨t.val % 16 * 512 + jj.val, key_lt t jj⟩ : Fin 8192) d) := by
  obtain ⟨-, -, -, -, e0, e1, -⟩ := idx_facts t
  unfold iblk
  rw [View.read_apply]
  refine (congrFun (V_v m c) _).trans ?_
  congr 1
  funext a; apply Fin.ext
  match a with
  | ⟨0, _⟩ => show win0_2.index t (0 : Fin 2) * 512 + 1 * jj.val = t.val % 16 * 512 + jj.val; rw [e0]; omega
  | ⟨1, _⟩ => show win0_2.index t (1 : Fin 2) * 1024 + 1 * d.val = d.val; rw [e1]; omega

/-! ### With real entries -/

theorem blk_q_real (c : Dev nD) (hq : Attn.IsReal (argQ m c)) (t : Fin cfg0.N) (r k : Fin 1024) :
    (iblk m c 0 t : Vec Ideal S1024x1024 .bf16) (ix2 r k)
      = ((Attn.rowsN (argQ m c) (t.val / 16 * 1024 + r.val) k * (1 / 32) : ℝ) : EReal) := by
  rw [blk_q, ofBits_scale, EReal.coe_mul]
  exact congrArg (· * ((1 / 32 : ℝ) : EReal)) (Attn.rowsN_coe hq ⟨_, row_lt t r⟩ k)

theorem blk_k_real (c : Dev nD) (hk : Attn.IsReal (argK m c)) (t : Fin cfg0.N) (jj : Fin 512) (k : Fin 1024) :
    (iblk m c 1 t : Vec Ideal S512x1024 .bf16) (ix2 jj k)
      = ((Attn.rowsN (argK m c) (t.val % 16 * 512 + jj.val) k : ℝ) : EReal) := by
  rw [blk_k]; exact Attn.rowsN_coe hk ⟨_, key_lt t jj⟩ k

theorem blk_v_real (c : Dev nD) (hv : Attn.IsReal (argV m c)) (t : Fin cfg0.N) (jj : Fin 512) (d : Fin 1024) :
    (iblk m c 2 t : Vec Ideal S512x1024 .bf16) (ix2 jj d)
      = ((Attn.rowsN (argV m c) (t.val % 16 * 512 + jj.val) d : ℝ) : EReal) := by
  rw [blk_v]; exact Attn.rowsN_coe hv ⟨_, key_lt t jj⟩ d

end Cert.KernelIdeal.Blocks
end
-- ==== Proof.LibOnlineSoftmax.lean ====
/-
  The streaming form of a softmax-weighted average, over the reals.

  A softmax-weighted average of values `W j` with scores `F j` is
  `(∑ j, exp (F j) * W j) / (∑ j, exp (F j))`. Subtracting any real `M` from every score changes neither the
  numerator-to-denominator ratio (`shift`), so a streaming evaluation may carry its partial sums relative to a
  running reference level `M` that it is free to move: when the level moves from `M` to `M'` the partial sums are
  multiplied by `exp (M - M')` (`rescale`), and the next block of keys is added relative to the new level. No property
  of the level is used — in particular not that it is the running maximum.
-/
import Mathlib.Analysis.SpecialFunctions.Exp
import Mathlib.Algebra.BigOperators.Field
import Mathlib.Algebra.BigOperators.Fin
import Mathlib.Tactic.Ring
import Mathlib.Tactic.FieldSimp
import Mathlib.Tactic.Positivity

noncomputable section

namespace OnlineSoftmax

open Finset Real

/-- Moving the reference level from `M` to `M'` and adding block `n`: the weighted partial sum over the blocks
    `0 … n - 1` relative to `M`, rescaled by `exp (M - M')`, plus block `n` relative to `M'`, is the weighted partial
    sum over the blocks `0 … n` relative to `M'`. Keys are numbered `block * B + position`. -/
theorem rescale (n B : ℕ) (F W : ℕ → ℝ) (M M' : ℝ) :
    exp (M - M') * (∑ bb ∈ range n, ∑ jj : Fin B, exp (F (bb * B + jj.val) - M) * W (bb * B + jj.val))
        + ∑ jj : Fin B, exp (F (n * B + jj.val) - M') * W (n * B + jj.val)
      = ∑ bb ∈ range (n + 1), ∑ jj : Fin B, exp (F (bb * B + jj.val) - M') * W (bb * B + jj.val) := by
  rw [sum_range_succ, mul_sum]
  congr 1
  refine sum_congr rfl fun bb _ => ?_
  rw [mul_sum]
  refine sum_congr rfl fun jj _ => ?_
  rw [← mul_assoc, ← exp_add]
  congr 2
  ring

/-- The same for the unweighted partial sums (the normalizer). -/
theorem rescale_one (n B : ℕ) (F : ℕ → ℝ) (M M' : ℝ) :
    exp (M - M') * (∑ bb ∈ range n, ∑ jj : Fin B, exp (F (bb * B + jj.val) - M))
        + ∑ jj : Fin B, exp (F (n * B + jj.val) - M')
      = ∑ bb ∈ range (n + 1), ∑ jj : Fin B, exp (F (bb * B + jj.val) - M') := by
  simpa using rescale n B F (fun _ => 1) M M'

/-- The first block, added to a state reset to zero with rescaling factor zero: the partial sum over block `0`. -/
theorem first (B : ℕ) (F W : ℕ → ℝ) (M' : ℝ) :
    (0 : ℝ) * 0 + ∑ jj : Fin B, exp (F (0 * B + jj.val) - M') * W (0 * B + jj.val)
      = ∑ bb ∈ range (0 + 1), ∑ jj : Fin B, exp (F (bb * B + jj.val) - M') * W (bb * B + jj.val) := by
  simp

/-- The same for the unweighted partial sum. -/
theorem first_one (B : ℕ) (F : ℕ → ℝ) (M' : ℝ) :
    (0 : ℝ) * 0 + ∑ jj : Fin B, exp (F (0 * B + jj.val) - M')
      = ∑ bb ∈ range (0 + 1), ∑ jj : Fin B, exp (F (bb * B + jj.val) - M') := by
  simp

/-- A partial normalizer over at least one nonempty block is positive. -/
theorem partial_pos (n B : ℕ) (hB : 0 < B) (F : ℕ → ℝ) (M : ℝ) :
    0 < ∑ bb ∈ range (n + 1), ∑ jj : Fin B, exp (F (bb * B + jj.val) - M) := by
  haveI : Nonempty (Fin B) := ⟨⟨0, hB⟩⟩
  exact sum_pos (fun bb _ => sum_pos (fun jj _ => exp_pos _) univ_nonempty)
    ⟨0, mem_range.2 (Nat.succ_pos n)⟩

/-- All `A` blocks of `B` keys are all `A * B` keys. -/
theorem sum_all_blocks (A B : ℕ) (f : ℕ → ℝ) :
    ∑ bb ∈ range A, ∑ jj : Fin B, f (bb * B + jj.val) = ∑ j : Fin (A * B), f j.val := by
  rw [← Fin.sum_univ_eq_sum_range (fun bb => ∑ jj : Fin B, f (bb * B + jj.val)) A,
    ← Equiv.sum_comp finProdFinEquiv (fun j : Fin (A * B) => f j.val), Fintype.sum_prod_type]
  refine sum_congr rfl fun a _ => sum_congr rfl fun b _ => congrArg f ?_
  show a.val * B + b.val = b.val + B * a.val
  ring

/-- A softmax-weighted average does not depend on the reference level subtracted from the scores. -/
theorem shift {ι : Type*} (s : Finset ι) (F W : ι → ℝ) (M : ℝ) :
    (∑ j ∈ s, exp (F j - M) * W j) / (∑ j ∈ s, exp (F j - M))
      = (∑ j ∈ s, exp (F j) * W j) / (∑ j ∈ s, exp (F j)) := by
  have h1 : ∑ j ∈ s, exp (F j - M) * W j = (∑ j ∈ s, exp (F j) * W j) / exp M := by
    rw [sum_div]; exact sum_congr rfl fun j _ => by rw [exp_sub]; ring
  have h2 : ∑ j ∈ s, exp (F j - M) = (∑ j ∈ s, exp (F j)) / exp M := by
    rw [sum_div]; exact sum_congr rfl fun j _ => by rw [exp_sub]
  rw [h1, h2, div_div_div_cancel_right₀ (exp_ne_zero M)]

/-- The streamed ratio after all 16 blocks of 512 keys is the softmax-weighted average over the 8192 keys. -/
theorem final_ratio (F W : ℕ → ℝ) (M : ℝ) :
    (∑ bb ∈ range (15 + 1), ∑ jj : Fin 512, exp (F (bb * 512 + jj.val) - M) * W (bb * 512 + jj.val))
        / (∑ bb ∈ range (15 + 1), ∑ jj : Fin 512, exp (F (bb * 512 + jj.val) - M))
      = (∑ j : Fin 8192, exp (F j.val) * W j.val) / (∑ j : Fin 8192, exp (F j.val)) := by
  rw [sum_all_blocks 16 512 (fun j => exp (F j - M) * W j), sum_all_blocks 16 512 (fun j => exp (F j - M))]
  exact shift Finset.univ (fun j : Fin 8192 => F j.val) (fun j : Fin 8192 => W j.val) M

/-- Normalizing each weight first and then averaging (the two-pass form, its normalizer started from `0`) is the
    ratio of the weighted sum to the normalizer. -/
theorem normalize_first {ι : Type*} (s : Finset ι) (E W : ι → ℝ) :
    ∑ j ∈ s, E j / (0 + ∑ j' ∈ s, E j') * W j = (∑ j ∈ s, E j * W j) / (∑ j' ∈ s, E j') := by
  rw [zero_add, sum_div]
  exact sum_congr rfl fun j _ => by ring

/-- A normalizer of exponentials over a nonempty key set is positive. -/
theorem normalizer_pos {ι : Type*} (s : Finset ι) (hs : s.Nonempty) (F : ι → ℝ) : 0 < ∑ j ∈ s, exp (F j) :=
  sum_pos (fun j _ => exp_pos _) hs

end OnlineSoftmax

end
-- ==== Proof.KernelInvariant.lean ====
/-
  The invariant of the attention kernel's carried scratch, by induction on the grid point, and the output block.

  After point `n` (query block `n / 16`, key blocks `0 … n % 16` done), for every row `r` of the query block there is a
  real level `M r` such that the three scratch buffers hold `M r`, the partial normalizer
  `∑ exp (score - M r)` and the partial weighted sums `∑ exp (score - M r) * value` over the keys of the blocks done so far.
  Which real the level is never matters. At a last key block the output block's entry is the quotient of the two
  complete sums, which is the softmax-weighted average whatever the level.
-/
import proofs.«163977_j39032662786718_2_alg».proof.Proof.KernelPoints
import proofs.«163977_j39032662786718_2_alg».proof.Proof.KernelStep
import proofs.«163977_j39032662786718_2_alg».proof.Proof.KernelBlocks
import proofs.«163977_j39032662786718_2_alg».proof.Proof.LibOnlineSoftmax

set_option maxRecDepth 16384

noncomputable section
open Idealize.ShloMosaic Idealize.ShloMosaic.TcCoe Idealize.SL.Sem Idealize.ShloMosaic.ValueIdx
namespace Cert.KernelIdeal.Invariant
open Cert.KernelIdeal Cert.KernelIdeal.Gen Cert.KernelIdeal.Pieces Cert.KernelIdeal.Points Cert.KernelIdeal.Step
  Cert.KernelIdeal.Blocks Cert.KernelIdeal.Body

/-- The reset level is -inf. -/
theorem reset_level (idx : S1024x1.Idx) : (k0_pay4 (F := Ideal)) idx = ⊥ := by
  unfold k0_pay4; simp only [shapeCast_self]; exact ofBits_neg_inf
/-- The reset normalizer is zero. -/
theorem reset_norm (idx : S1024x1.Idx) : (k0_pay5 (F := Ideal)) idx = ((0 : ℝ) : EReal) := by
  unfold k0_pay5; simp only [shapeCast_self]; exact Ideal.ofBits_zero_f32
/-- The reset weighted sum is zero. -/
theorem reset_acc (idx : S1024x1024.Idx) : (k0_pay6 (F := Ideal)) idx = ((0 : ℝ) : EReal) := by
  unfold k0_pay6; simp only [shapeCast_self]; exact Ideal.ofBits_zero_f32

theorem newLevel_eq (x0 : Vec Ideal S1024x1024 .bf16) (x1 : Vec Ideal S512x1024 .bf16) (m0 : Vec Ideal S1024x1 .f32) :
    newLevel x0 x1 m0 = k0_pay8 (F := Ideal) x0 x1 m0 := by
  unfold newLevel k0_pay2; exact shapeCast_self _ _
theorem newAcc_eq (x0 : Vec Ideal S1024x1024 .bf16) (x1 x2 : Vec Ideal S512x1024 .bf16) (m0 : Vec Ideal S1024x1 .f32)
    (a0 : Vec Ideal S1024x1024 .f32) : newAcc x0 x1 x2 m0 a0 = k0_pay12 (F := Ideal) x0 x1 x2 m0 m0 a0 := by
  unfold newAcc k0_pay1; exact shapeCast_self _ _

variable (m : (ℓ : Loc nD τ sig) → Buf (Elt Ideal) ℓ) (c : Dev nD)

/-- The scores of row `r` of the query block of point `n`, against every key. -/
def F (n : ℕ) (r : Fin 1024) (j : ℕ) : ℝ := Attn.score (argQ m c) (argK m c) (n / 16 * 1024 + r.val) j
/-- Column `d` of the values. -/
def W (d : Fin 1024) (j : ℕ) : ℝ := Attn.rowsN (argV m c) j d

/-- The invariant after point `n`. -/
def Inv (n : ℕ) (h : n < cfg0.N) : Prop :=
  ∃ Mr : Fin 1024 → ℝ,
    (∀ r : Fin 1024, (outsAt0 m c n h).2.1 (ix2 r (0 : Fin 1)) = ((Mr r : ℝ) : EReal))
    ∧ (∀ r : Fin 1024, (outsAt0 m c n h).2.2.1 (ix2 r (0 : Fin 1))
        = ((∑ bb ∈ Finset.range (n % 16 + 1), ∑ jj : Fin 512, Real.exp (F m c n r (bb * 512 + jj.val) - Mr r) : ℝ) : EReal))
    ∧ (∀ r d : Fin 1024, (outsAt0 m c n h).2.2.2 (ix2 r d)
        = ((∑ bb ∈ Finset.range (n % 16 + 1), ∑ jj : Fin 512,
              Real.exp (F m c n r (bb * 512 + jj.val) - Mr r) * W m c d (bb * 512 + jj.val) : ℝ) : EReal))

variable (hq : Attn.IsReal (argQ m c)) (hk : Attn.IsReal (argK m c)) (hv : Attn.IsReal (argV m c))
include hq hk hv

/-- One key block from a state of reals (or the level -inf): a new real level, and the new normalizer and weighted
    sum from the old ones and the rescaling factor. -/
theorem advance (t : Fin cfg0.N) (m0 l0 : Vec Ideal S1024x1 .f32) (a0 : Vec Ideal S1024x1024 .f32)
    (L : Fin 1024 → ℝ) (A : Fin 1024 → Fin 1024 → ℝ)
    (hm : ∀ r : Fin 1024, m0 (ix2 r (0 : Fin 1)) = ⊥ ∨ ∃ M : ℝ, m0 (ix2 r (0 : Fin 1)) = (M : EReal))
    (hl : ∀ r : Fin 1024, l0 (ix2 r (0 : Fin 1)) = ((L r : ℝ) : EReal))
    (ha : ∀ r d : Fin 1024, a0 (ix2 r d) = ((A r d : ℝ) : EReal)) :
    ∃ M' : Fin 1024 → ℝ,
      (∀ r : Fin 1024, newLevel (iblk m c 0 t) (iblk m c 1 t) m0 (ix2 r (0 : Fin 1)) = ((M' r : ℝ) : EReal))
      ∧ (∀ (r : Fin 1024) (α : ℝ), Ideal.exp (m0 (ix2 r (0 : Fin 1)) - ((M' r : ℝ) : EReal)) = (α : EReal) →
          newNorm (iblk m c 0 t) (iblk m c 1 t) m0 l0 (ix2 r (0 : Fin 1))
            = ((α * L r + ∑ jj : Fin 512, Real.exp (F m c t.val r (t.val % 16 * 512 + jj.val) - M' r) : ℝ) : EReal))
      ∧ (∀ (r d : Fin 1024) (α : ℝ), Ideal.exp (m0 (ix2 r (0 : Fin 1)) - ((M' r : ℝ) : EReal)) = (α : EReal) →
          newAcc (iblk m c 0 t) (iblk m c 1 t) (iblk m c 2 t) m0 a0 (ix2 r d)
            = ((α * A r d + ∑ jj : Fin 512, Real.exp (F m c t.val r (t.val % 16 * 512 + jj.val) - M' r)
                  * W m c d (t.val % 16 * 512 + jj.val) : ℝ) : EReal)) := by
  have bq := blk_q_real m c hq t
  have bk := blk_k_real m c hk t
  have bv := blk_v_real m c hv t
  have hlev : ∀ r : Fin 1024, ∃ M' : ℝ, k0_pay8 (F := Ideal) (iblk m c 0 t) (iblk m c 1 t) m0 (ix2 r (0 : Fin 1)) = (M' : EReal) :=
    fun r => level_real (iblk m c 0 t) (iblk m c 1 t) m0 _ _ bq bk r (hm r)
  choose M' hM' using hlev
  refine ⟨M', fun r => ?_, fun r α hα => ?_, fun r d α hα => ?_⟩
  · rw [newLevel_eq]; exact hM' r
  · exact norm_real (iblk m c 0 t) (iblk m c 1 t) m0 l0 _ _ bq bk r (M' r) α (L r) (hM' r) hα (hl r)
  · rw [newAcc_eq]
    exact acc_real (iblk m c 0 t) (iblk m c 1 t) (iblk m c 2 t) m0 a0 _ _ _ bq bk bv r d (M' r) α (A r d) (hM' r) hα (ha r d)

/-- It holds after the first key block of a query block. -/
theorem inv_first (t : Fin cfg0.N) (h0 : t.val % 16 = 0) : Inv m c t.val t.isLt := by
  obtain ⟨e1, e2, e3⟩ := outs_first m c t h0
  obtain ⟨M', hM', hN, hA⟩ := advance m c hq hk hv t (k0_pay4 (F := Ideal)) (k0_pay5 (F := Ideal)) (k0_pay6 (F := Ideal))
    (fun _ => 0) (fun _ _ => 0)
    (fun r => Or.inl (reset_level (ix2 r (0 : Fin 1)))) (fun r => reset_norm (ix2 r (0 : Fin 1))) (fun r d => reset_acc (ix2 r d))
  have hα : ∀ r : Fin 1024, Ideal.exp ((k0_pay4 (F := Ideal)) (ix2 r (0 : Fin 1)) - ((M' r : ℝ) : EReal)) = ((0 : ℝ) : EReal) :=
    fun r => by rw [reset_level, EReal.bot_sub, Ideal.exp_bot]; rfl
  refine ⟨M', fun r => ?_, fun r => ?_, fun r d => ?_⟩
  · rw [e1]; exact hM' r
  · rw [e2, hN r 0 (hα r), h0, OnlineSoftmax.first_one 512 (F m c t.val r) (M' r)]
  · rw [e3, hA r d 0 (hα r), h0, OnlineSoftmax.first 512 (F m c t.val r) (W m c d) (M' r)]

/-- It is kept by every later key block. -/
theorem inv_next (t : Fin cfg0.N) (h0 : ¬t.val % 16 = 0)
    (ih : Inv m c (t.val - 1) (Nat.lt_of_le_of_lt (Nat.sub_le _ _) t.isLt)) : Inv m c t.val t.isLt := by
  obtain ⟨Mr, iM, iL, iA⟩ := ih
  obtain ⟨e1, e2, e3, -⟩ := outs_next m c t h0
  obtain ⟨M', hM', hN, hA⟩ := advance m c hq hk hv t _ _ _ _ _ (fun r => Or.inr ⟨Mr r, iM r⟩) iL iA
  have hα : ∀ r : Fin 1024, Ideal.exp ((outsAt0 m c (t.val - 1) (Nat.lt_of_le_of_lt (Nat.sub_le _ _) t.isLt)).2.1 (ix2 r (0 : Fin 1))
      - ((M' r : ℝ) : EReal)) = ((Real.exp (Mr r - M' r) : ℝ) : EReal) :=
    fun r => by rw [iM r, ← EReal.coe_sub, Ideal.exp_coe]
  have ea : (t.val - 1) / 16 = t.val / 16 := by omega
  have eb : (t.val - 1) % 16 + 1 = t.val % 16 := by omega
  have hF : ∀ r : Fin 1024, F m c (t.val - 1) r = F m c t.val r := fun r => by unfold F; rw [ea]
  refine ⟨M', fun r => ?_, fun r => ?_, fun r d => ?_⟩
  · rw [e1]; exact hM' r
  · rw [e2, hN r _ (hα r), hF r, eb, OnlineSoftmax.rescale_one (t.val % 16) 512 (F m c t.val r) (Mr r) (M' r)]
  · rw [e3, hA r d _ (hα r), hF r, eb, OnlineSoftmax.rescale (t.val % 16) 512 (F m c t.val r) (W m c d) (Mr r) (M' r)]

/-- It holds after every point. -/
theorem inv_all : ∀ (n : ℕ) (h : n < cfg0.N), Inv m c n h
  | 0, h => inv_first m c hq hk hv ⟨0, h⟩ rfl
  | n + 1, h =>
    if h0 : (n + 1) % 16 = 0 then inv_first m c hq hk hv ⟨n + 1, h⟩ h0
    else inv_next m c hq hk hv ⟨n + 1, h⟩ h0 (inv_all n (Nat.lt_of_succ_lt h))

/-- THE OUTPUT BLOCK after a last key block: entry `(r, d)` is the attention output of the block's row `r`. -/
theorem out_last (t : Fin cfg0.N) (h15 : t.val % 16 = 15) (r d : Fin 1024) :
    (outsAt0 m c t.val t.isLt).1 (ix2 r d)
      = ((Attn.attn (argQ m c) (argK m c) (argV m c) (t.val / 16 * 1024 + r.val) d : ℝ) : EReal) := by
  have h0 : ¬t.val % 16 = 0 := by omega
  obtain ⟨e1, e2, e3, e4⟩ := outs_next m c t h0
  obtain ⟨Mr, iM, iL, iA⟩ := inv_all m c hq hk hv t.val t.isLt
  rw [e4 h15, ← e3, ← e2]
  have hpos := OnlineSoftmax.partial_pos (t.val % 16) 512 (by norm_num) (F m c t.val r) (Mr r)
  rw [out_real _ _ r d _ _ (iA r d) (iL r) (ne_of_gt hpos), h15, OnlineSoftmax.final_ratio (F m c t.val r) (W m c d) (Mr r)]
  rfl

end Cert.KernelIdeal.Invariant
end
-- ==== Proof.KernelValue.lean ====
/-
  The attention kernel's result array after its run: the attention output of the three argument arrays.

  Only the last key block of a query block writes the output block back; that block is rows
  `(t / 16) * 1024 … + 1023` of the result, all 1024 columns, and its entries are the attention outputs of those rows.
  The eight written blocks tile the 8192 rows, so the whole result array is the specification's array.
-/
import proofs.«163977_j39032662786718_2_alg».proof.Proof.KernelInvariant
import proofs.«163977_j39032662786718_2_alg».proof.Proof.Gen.KernelIdeal.Value

set_option maxRecDepth 16384

noncomputable section
open Idealize.ShloMosaic Idealize.ShloMosaic.TcCoe Idealize.SL.Sem Idealize.ShloMosaic.ValueIdx
open Idealize.ShloMosaic.Pipeline (Dat)
namespace Cert.KernelIdeal.Whole
open Cert.KernelIdeal Cert.KernelIdeal.Gen Cert.KernelIdeal.Blocks Cert.KernelIdeal.Invariant

variable (m : (ℓ : Loc nD τ sig) → Buf (Elt Ideal) ℓ) (ρ : Dev nD → PrngReg) (c : Dev nD)

/-- An index of the result array is in point `t`'s block iff each coordinate is in the block's range on its axis. -/
theorem mem_blk (t : Fin cfg0.N) (i : S8192x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v5).slice (win0_3.rect t)).set ↔ _
  rw [View.set_slice_whole, Rect.mem_set_unit]
  exact Iff.rfl

/-- Every row of the result lies in the block written back after the last key block of its query block. -/
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have hN : cfg0.N = 128 := N_0
  have hlt : (i 0).val / 1024 * 16 + 15 < cfg0.N := by rw [hN]; omega
  obtain ⟨-, -, -, -, -, -, e0, e1⟩ := idx_facts ⟨(i 0).val / 1024 * 16 + 15, hlt⟩
  refine ⟨⟨(i 0).val / 1024 * 16 + 15, hlt⟩, (flush0_3 _).mpr (by show ((i 0).val / 1024 * 16 + 15) % 16 = 15; omega), ?_⟩
  rw [mem_blk]
  intro a
  match a with
  | ⟨0, _⟩ =>
    show win0_3.index ⟨(i 0).val / 1024 * 16 + 15, hlt⟩ (0 : Fin 2) * 1024 ≤ (i 0).val
      ∧ (i 0).val < win0_3.index ⟨(i 0).val / 1024 * 16 + 15, hlt⟩ (0 : Fin 2) * 1024 + 1024
    rw [e0]; show ((i 0).val / 1024 * 16 + 15) / 16 * 1024 ≤ (i 0).val ∧ (i 0).val < ((i 0).val / 1024 * 16 + 15) / 16 * 1024 + 1024
    omega
  | ⟨1, _⟩ =>
    show win0_3.index ⟨(i 0).val / 1024 * 16 + 15, hlt⟩ (1 : Fin 2) * 1024 ≤ (i 1).val
      ∧ (i 1).val < win0_3.index ⟨(i 0).val / 1024 * 16 + 15, hlt⟩ (1 : Fin 2) * 1024 + 1024
    rw [e1]; omega

variable (hq : Attn.IsReal (argQ m c)) (hk : Attn.IsReal (argK m c)) (hv : Attn.IsReal (argV m c))
include hq hk hv

/-- What a write-back writes is its block of the attention output. -/
theorem flushed_eq (t : Fin cfg0.N) (hf : (cfg0.win 3).flush t = true) :
    (dats m 0 c).flushed 3 t = ((cfg0.win 3).blk t).view.read (Elt Ideal) (Attn.G (argQ m c) (argK m c) (argV m c)) := by
  have h15 : t.val % 16 = 15 := (flush0_3 t).mp hf
  obtain ⟨-, -, -, -, -, -, e0, e1⟩ := idx_facts t
  rw [Cert.KernelIdeal.Value.flushed3]
  funext y
  show (outsAt0 m c t.val t.isLt).1 y = Attn.G (argQ m c) (argK m c) (argV m c) (((cfg0.win 3).blk t).view.emb y)
  have hemb : ((cfg0.win 3).blk t).view.emb y = ix2 (⟨t.val / 16 * 1024 + (y 0).val, row_lt t (y 0)⟩ : Fin 8192) (y 1) := by
    funext a; apply Fin.ext
    match a with
    | ⟨0, _⟩ => show win0_3.index t (0 : Fin 2) * 1024 + 1 * (y 0).val = t.val / 16 * 1024 + (y 0).val; rw [e0]; omega
    | ⟨1, _⟩ => show win0_3.index t (1 : Fin 2) * 1024 + 1 * (y 1).val = (y 1).val; rw [e1]; omega
  rw [hemb]
  exact (congrArg (outsAt0 m c t.val t.isLt).1 (eq_ix2 y)).trans (out_last m c hq hk hv t h15 (y 0) (y 1))

/-- The result array after the run. -/
theorem final : (dats m 0 c).arrAt 3 cfg0.N = Attn.G (argQ m c) (argK m c) (argV m c) :=
  (dats m 0 c).arrAt_eq_of_cover 3 (Attn.G (argQ m c) (argK m c) (argV m c)) (flushed_eq m c hq hk hv) cover

end Cert.KernelIdeal.Whole
end
-- ==== Proof.ReferenceValue.lean ====
/-
  The reference program computes dense softmax attention.

  Read at the extended reals, the reference forms the scores `S i j = (∑ c, q i c * k j c) / sqrt 1024`, the row
  level `M i = max (-∞) (max over j of S i j, started from -∞)`, the weights `E i j = exp (S i j - M i)`, the
  normalizer `L i = 0 + ∑ j, E i j`, the normalized weights `P i j = E i j / L i`, and the output
  `∑ j, P i j * v j d`. When every entry of `q`, `k` and `v` is a real number every one of these is a real number:
  `sqrt 1024 = 32`, a maximum over a nonempty row of reals started from `-∞` is one of the reals, an exponential
  of a real is a positive real, and so the normalizer is positive. In the reals, dividing each weight by the
  normalizer and then averaging is the ratio of the weighted sum to the normalizer, and that ratio does not depend
  on the level subtracted from the scores; so the output is the softmax-weighted average `Attn.attn`, which is
  `Attn.G` entry by entry.
-/
import proofs.«163977_j39032662786718_2_alg».proof.Proof.Gen.ReferenceIdeal.Read
import proofs.«163977_j39032662786718_2_alg».proof.Proof.AttentionSpec
import proofs.«163977_j39032662786718_2_alg».proof.Proof.LibOnlineSoftmax
import proofs.«163977_j39032662786718_2_alg».proof.Proof.LibFiniteAssoc

noncomputable section

namespace Attn.Ref

open Cert.ReferenceIdeal Cert.ReferenceIdeal.Gen Cert.ReferenceIdeal.Read Idealize.ShloMosaic Idealize.ShloMosaic.ValueIdx
open Cert.LibFiniteAssoc (coe_sum_real)

/-- An argument array: 8192 rows of 1024 extended reals. -/
abbrev Arr : Type := (⟨S8192x1024, .f32⟩ : BufTy).Contents (Elt Ideal)

/-! ## The constants -/

/-- The pattern `0x44800000` denotes the real `1024`. -/
theorem const_1024 : Ideal.ofBits .f32 0x44800000#32 = ((1024 : ℝ) : EReal) := by
  simp [Ideal.ofBits, Ideal.ieee, -EReal.coe_mul]; norm_num

/-- The pattern `0xFF800000` denotes `-∞`. -/
theorem const_neg_inf : Ideal.ofBits .f32 0xFF800000#32 = (⊥ : EReal) := by
  simp [Ideal.ofBits, Ideal.ieee]

/-- `sqrt 1024 = 32`, since `1024 = 32 * 32`. -/
theorem sqrt_1024 : Real.sqrt 1024 = 32 := by
  rw [show (1024 : ℝ) = 32 * 32 by norm_num]; exact Real.sqrt_mul_self (by norm_num)

/-- The divisor of the scores is `32` at every index. -/
theorem scale_eq (j : S8192x8192.Idx) : val_main_v3 (F := Ideal) j = ((32 : ℝ) : EReal) := by
  rw [val_main_v3_apply, val_main_v2_apply, val_main_cst_apply]
  show Ideal.sqrt (Ideal.ofBits .f32 0x44800000#32) = _
  rw [const_1024, Ideal.sqrt_coe, if_neg (by norm_num), sqrt_1024]

/-! ## The scores -/

/-- The left factor of the score product at `(i, j)`, contracted coordinate `c`, is entry `(i, c)` of `q`. -/
theorem lidx_v1 (i j : Fin 8192) (c : Fin 1024) : lidx_main_v1 (ix2 i j) c = ix2 i c :=
  funext fun a => Fin.ext (by match a with | ⟨0, _⟩ => rfl | ⟨1, _⟩ => rfl)

/-- The right factor, read through the transpose, is entry `(j, c)` of `k`. -/
theorem ridx_v1 (i j : Fin 8192) (c : Fin 1024) : idx_main_v0 (ridx_main_v1 (ix2 i j) c) = ix2 j c :=
  funext fun a => Fin.ext (by match a with | ⟨0, _⟩ => rfl | ⟨1, _⟩ => rfl)

/-- The scaled score at `(i, j)` is the real `Attn.score`: `(∑ c, q i c * k j c) / 32 = ∑ c, q i c * (1/32) * k j c`. -/
theorem score_eq (x0 x1 : Arr) (h0 : Attn.IsReal x0) (h1 : Attn.IsReal x1) (i j : Fin 8192) :
    val_main_v4 (F := Ideal) x0 x1 (ix2 i j) = ((Attn.score x0 x1 i.val j.val : ℝ) : EReal) := by
  rw [val_main_v4_apply, scale_eq, val_main_v1_apply]
  simp only [val_main_v0_apply, lidx_v1, ridx_v1, Attn.rowsN_coe h0, Attn.rowsN_coe h1, Ideal.hostDivf_def]
  rw [Ideal.div_coe (by norm_num)]
  simp only [← EReal.coe_mul, coe_sum_real]
  unfold Attn.score
  congr 1
  rw [Finset.sum_mul]
  exact Finset.sum_congr rfl fun c _ => by ring

/-- Every score is a real number. -/
theorem score_real (x0 x1 : Arr) (h0 : Attn.IsReal x0) (h1 : Attn.IsReal x1) (idx : S8192x8192.Idx) :
    ∃ r : ℝ, val_main_v4 (F := Ideal) x0 x1 idx = (r : EReal) := by
  obtain ⟨i, j, rfl⟩ : ∃ (i j : Fin 8192), idx = ix2 i j := ⟨idx 0, idx 1, eq_ix2 idx⟩
  exact ⟨_, score_eq x0 x1 h0 h1 i j⟩

/-! ## The row level -/

/-- The maximum of a nonempty family of reals, started from `-∞` and then compared with `-∞` once more, is a
    real: it is below `+∞` because `-∞` and every member are, and above `-∞` because some member is. -/
theorem fold_max_real {ι : Type*} (s : Finset ι) (hs : s.Nonempty) (f : ι → EReal) (b : EReal) (hb : b = ⊥)
    (hf : ∀ k, ∃ r : ℝ, f k = (r : EReal)) : ∃ M : ℝ, max b (s.fold max b f) = (M : EReal) := by
  subst hb
  have htop : s.fold max ⊥ f ≠ ⊤ := by
    refine ne_of_lt ((Finset.fold_max_lt _).2 ⟨bot_lt_top, fun k _ => ?_⟩)
    obtain ⟨r, hr⟩ := hf k
    rw [hr]; exact EReal.coe_lt_top r
  have hbot : s.fold max ⊥ f ≠ ⊥ := by
    obtain ⟨k, hk⟩ := hs
    refine ne_of_gt ((Finset.lt_fold_max _).2 (Or.inr ⟨k, hk, ?_⟩))
    obtain ⟨r, hr⟩ := hf k
    rw [hr]; exact EReal.bot_lt_coe r
  exact ⟨(s.fold max ⊥ f).toReal, by rw [max_eq_right bot_le, EReal.coe_toReal htop hbot]⟩

/-- The level subtracted from row `i` of the scores is some real number. Which real it is does not matter below. -/
theorem rowmax_real (x0 x1 : Arr) (h0 : Attn.IsReal x0) (h1 : Attn.IsReal x1) (i : Fin 8192) :
    ∃ M : ℝ, val_main_v7 (F := Ideal) x0 x1 (ix1 i) = (M : EReal) := by
  have hred : S8192x8192.Reduces [1] S8192 := by decide
  rw [val_main_v7_apply, val_main_v6_apply, val_main_cst_1_apply]
  unfold val_main_v5
  rw [Host.reduce_eq_fold_single FloatOps.maximumf _ _ reducesTo_S8192x8192_S8192_d1 hred h_S_, val_main_cst_0_apply]
  exact fold_max_real Finset.univ ⟨⟨0, by decide⟩, Finset.mem_univ _⟩ _ _ const_neg_inf
    (fun k => score_real x0 x1 h0 h1 _)

/-! ## The weights and the normalizer -/

/-- The level broadcast along the row is read at the row. -/
theorem idx_v9 (i j : Fin 8192) : idx_main_v8 (idx_main_v9 (ix2 i j)) = ix1 i :=
  funext fun a => Fin.ext (by match a with | ⟨0, _⟩ => rfl)

/-- The weight at `(i, j)` is `exp (score i j - M)`, `M` the level of row `i`. -/
theorem exp_eq (x0 x1 : Arr) (h0 : Attn.IsReal x0) (h1 : Attn.IsReal x1) (i j : Fin 8192) (M : ℝ)
    (hM : val_main_v7 (F := Ideal) x0 x1 (ix1 i) = (M : EReal)) :
    val_main_v11 (F := Ideal) x0 x1 (ix2 i j) = ((Real.exp (Attn.score x0 x1 i.val j.val - M) : ℝ) : EReal) := by
  rw [val_main_v11_apply, val_main_v10_apply, val_main_v9_apply, val_main_v8_apply, idx_v9, hM, score_eq x0 x1 h0 h1]
  simp only [Ideal.hostUnary_exp_def, Ideal.subf_def]
  rw [← EReal.coe_sub, Ideal.exp_coe]

/-- Term `k` of the row sum at row `i` is the weight at `(i, k)`. -/
theorem idx_v12 (i k : Fin 8192) : idx_main_v12 (ix1 i) k = ix2 i k :=
  funext fun a => Fin.ext (by match a with | ⟨0, _⟩ => rfl | ⟨1, _⟩ => rfl)

/-- The normalizer of row `i` is `0 + ∑ j, exp (score i j - M)`. -/
theorem norm_eq (x0 x1 : Arr) (h0 : Attn.IsReal x0) (h1 : Attn.IsReal x1) (i : Fin 8192) (M : ℝ)
    (hM : val_main_v7 (F := Ideal) x0 x1 (ix1 i) = (M : EReal)) :
    val_main_v12 (F := Ideal) x0 x1 (ix1 i)
      = ((0 + ∑ j : Fin 8192, Real.exp (Attn.score x0 x1 i.val j.val - M) : ℝ) : EReal) := by
  rw [val_main_v12_apply, val_main_cst_2_apply]
  simp only [idx_v12, exp_eq x0 x1 h0 h1 i _ M hM, coe_sum_real]
  show Ideal.ofBits .f32 0x00000000#32 + _ = _
  rw [Ideal.ofBits_zero_f32, EReal.coe_add, EReal.coe_zero]

/-- The normalizer broadcast along the row is read at the row. -/
theorem idx_v14 (i j : Fin 8192) : idx_main_v13 (idx_main_v14 (ix2 i j)) = ix1 i :=
  funext fun a => Fin.ext (by match a with | ⟨0, _⟩ => rfl)

/-- The normalized weight at `(i, j)`: the weight times the reciprocal of the normalizer, which is positive (a sum of
    exponentials over a nonempty row), so the division is the real one. -/
theorem weight_eq (x0 x1 : Arr) (h0 : Attn.IsReal x0) (h1 : Attn.IsReal x1) (i j : Fin 8192) (M : ℝ)
    (hM : val_main_v7 (F := Ideal) x0 x1 (ix1 i) = (M : EReal)) :
    val_main_v15 (F := Ideal) x0 x1 (ix2 i j)
      = ((Real.exp (Attn.score x0 x1 i.val j.val - M)
          * (1 / (0 + ∑ j' : Fin 8192, Real.exp (Attn.score x0 x1 i.val j'.val - M))) : ℝ) : EReal) := by
  have hpos : (0 : ℝ) < 0 + ∑ j' : Fin 8192, Real.exp (Attn.score x0 x1 i.val j'.val - M) := by
    rw [zero_add]
    exact OnlineSoftmax.normalizer_pos Finset.univ Finset.univ_nonempty _
  rw [val_main_v15_apply, val_main_v14_apply, val_main_v13_apply, idx_v14, norm_eq x0 x1 h0 h1 i M hM,
    exp_eq x0 x1 h0 h1 i j M hM, Ideal.hostDivf_def, Ideal.div_coe hpos.ne', ← EReal.coe_mul]

/-! ## The output -/

/-- The left factor of the output product at `(i, d)`, contracted coordinate `k`, is the normalized weight at `(i, k)`. -/
theorem lidx_v16 (i k : Fin 8192) (d : Fin 1024) : lidx_main_v16 (ix2 i d) k = ix2 i k :=
  funext fun a => Fin.ext (by match a with | ⟨0, _⟩ => rfl | ⟨1, _⟩ => rfl)

/-- The right factor is entry `(k, d)` of `v`. -/
theorem ridx_v16 (i k : Fin 8192) (d : Fin 1024) : ridx_main_v16 (ix2 i d) k = ix2 k d :=
  funext fun a => Fin.ext (by match a with | ⟨0, _⟩ => rfl | ⟨1, _⟩ => rfl)

/-- On arrays of reals the reference's result is the attention output `Attn.G`: entry `(i, d)` is
    `∑ k, (E k * (1 / (0 + ∑ E))) * v k d` with `E k = exp (score i k - M)`; normalizing first and then averaging is
    the ratio `(∑ k, E k * v k d) / (∑ k, E k)`, and the ratio is the same with `M` removed from every score. -/
theorem reference_eq (x0 x1 x2 : (⟨Cert.ReferenceIdeal.S8192x1024, .f32⟩ : BufTy).Contents (Elt Ideal))
    (h0 : Attn.IsReal x0) (h1 : Attn.IsReal x1) (h2 : Attn.IsReal x2) :
    Cert.ReferenceIdeal.Read.val_main_v16 (F := Ideal) x0 x1 x2 = Attn.G x0 x1 x2 := by
  funext idx
  obtain ⟨i, d, rfl⟩ : ∃ (i : Fin 8192) (d : Fin 1024), idx = ix2 i d := ⟨idx 0, idx 1, eq_ix2 idx⟩
  obtain ⟨M, hM⟩ := rowmax_real x0 x1 h0 h1 i
  rw [Attn.G_apply, val_main_v16_apply]
  simp only [lidx_v16, ridx_v16, weight_eq x0 x1 h0 h1 i _ M hM, Attn.rowsN_coe h2, ← EReal.coe_mul, coe_sum_real]
  rw [EReal.coe_eq_coe_iff]
  unfold Attn.attn
  rw [← OnlineSoftmax.shift Finset.univ (fun j : Fin 8192 => Attn.score x0 x1 i.val j.val)
      (fun j : Fin 8192 => Attn.rowsN x2 j.val d) M, ← OnlineSoftmax.normalize_first]
  exact Finset.sum_congr rfl fun k _ => by rw [mul_one_div]

end Attn.Ref

end
-- ==== Proof.FiniteInputs.lean ====
/-
  From the precondition "every entry of each of the three argument arrays has absolute value strictly below +∞"
  to "every entry of each array is a real number".

  The precondition is one truth value: for each array, the conjunction over all indices of the comparison
  |x idx| < +∞, and the conjunction of the three. A conjunction that is true has every conjunct true, so each
  comparison holds at each index. On the extended reals |x| is max x (-x); this is ⊤ at both infinities, so an
  entry with |x| < ⊤ is neither, hence equals the coercion of its real part.
-/
import proofs.«163977_j39032662786718_2_alg».proof.Defs
import proofs.«163977_j39032662786718_2_alg».proof.Proof.Gen.Pre_finite_inputs
import proofs.«163977_j39032662786718_2_alg».proof.Proof.AttentionSpec
import Idealize.ShloMosaic.Lib.ReduceAll
import Idealize.ShloMosaic.Lib.ValueIdx

noncomputable section

namespace Attn.Fin

open Idealize.ShloMosaic

/-- The shape of rank zero has exactly one index. -/
instance subsingleton_scalar_idx : Subsingleton Cert.Pre_finite_inputs.S_.Idx :=
  ⟨fun a b => funext fun d => d.elim0⟩

/-- The binary32 pattern with all exponent bits set and a zero significand denotes +∞. -/
theorem ofBits_pos_inf : Ideal.ofBits .f32 0x7F800000#32 = (⊤ : EReal) := by
  simp [Ideal.ofBits, Ideal.ieee]

/-- An extended real whose absolute value max x (-x) is strictly below ⊤ is the coercion of its real part. -/
theorem eq_coe_toReal_of_abs_lt_top (x : EReal) (h : max x (-x) < ⊤) : x = ((x.toReal : ℝ) : EReal) := by
  induction x using EReal.rec with
  | bot => simp at h
  | coe r => simp
  | top => simp at h

/-- One array: if the comparison |x idx| < +∞ is true at every index, every entry is real. -/
theorem isReal_of_cmp [Cert.Pre_finite_inputs.Facts] (x : FVec Ideal Cert.Pre_finite_inputs.S8192x1024 .f32)
    (h : ∀ idx, cmpf .olt (Host.absf x)
        (broadcastInDim Cert.Pre_finite_inputs.S8192x1024 ![] Cert.Pre_finite_inputs.Facts.bcast_S_S8192x1024
          (constant Cert.Pre_finite_inputs.S_ .f32 0x7F800000#32)) idx = 1#1) :
    Attn.IsReal x := by
  intro idx
  have h1 : BitVec.ofBool (decide (max (x idx) (-x idx) < Ideal.ofBits .f32 0x7F800000#32)) = 1#1 := h idx
  rw [ofBits_pos_inf] at h1
  apply eq_coe_toReal_of_abs_lt_top
  by_contra hn
  rw [decide_eq_false hn] at h1
  exact absurd h1 (by decide)

theorem isReal_of_pre [Cert.Pre_finite_inputs.Facts] (a0 a1 a2 : FVec Ideal Cert.Pre_finite_inputs.S8192x1024 .f32)
    (h : Cert.Pre_finite_inputs.fn (F := Ideal) a0 a1 a2 = fun _ => 1#1) :
    Attn.IsReal a0 ∧ Attn.IsReal a1 ∧ Attn.IsReal a2 := by
  have h0 := congrFun h ValueIdx.ix0
  dsimp only [Cert.Pre_finite_inputs.fn] at h0
  obtain ⟨h01, h2⟩ := IntOp.andi_eq_one.1 h0
  obtain ⟨h0', h1⟩ := IntOp.andi_eq_one.1 h01
  exact ⟨isReal_of_cmp a0 (Host.reduce_andi_all _ _ _ _ _ h0'),
    isReal_of_cmp a1 (Host.reduce_andi_all _ _ _ _ _ h1),
    isReal_of_cmp a2 (Host.reduce_andi_all _ _ _ _ _ h2)⟩

end Attn.Fin

end
-- ==== Proof.lean ====
/-
  Dense softmax attention, `softmax(Q Kᵀ / sqrt 1024) V` over 8192 queries and keys of width 1024: a kernel that streams
  the keys in sixteen blocks of 512 per block of 1024 queries, against the two-pass reference.

  The kernel scales the queries by the literal 1/32 before the score product; the reference divides the score matrix
  by `sqrt 1024 = 32`. With real inputs both give the scores `s i j = ∑ c, q i c * (1/32) * k j c`.
  The kernel keeps, per query row, a reference level `m`, a normalizer `l = ∑ exp (s - m)` and weighted sums
  `acc = ∑ exp (s - m) * v` over the keys seen so far; each new block moves the level to the larger of `m` and the
  block's largest score, multiplies `l` and `acc` by `exp (m_old - m_new)`, adds the block's terms, and after the last
  block writes `acc / l`. The reference subtracts each row's maximum, exponentiates, divides by the row sum and
  multiplies by `v`. Both are the softmax-weighted average `(∑ j, exp (s i j) * v j d) / (∑ j, exp (s i j))`, because that
  ratio is unchanged when the same real is subtracted from every score of a row: which level is subtracted — the running
  maximum in the kernel, the row maximum in the reference — does not matter, only that it is a real. The inputs'
  finiteness is used throughout: it makes every score and level a real, so that factors move across the sums.

  The frames of the three programs and the kernel's run with its result array named are the generated modules'; the
  reference's run is the generated one; the idealization rewrote nothing, so `preserves` has nothing to state.
-/
import proofs.«163977_j39032662786718_2_alg».proof.Defs
import proofs.«163977_j39032662786718_2_alg».proof.Proof.Gen.Kernel
import proofs.«163977_j39032662786718_2_alg».proof.Proof.Gen.Kernel.Skeleton
import proofs.«163977_j39032662786718_2_alg».proof.Proof.Gen.Kernel.Launch
import proofs.«163977_j39032662786718_2_alg».proof.Proof.Gen.Kernel.Points
import proofs.«163977_j39032662786718_2_alg».proof.Proof.Gen.Kernel.Frame
import proofs.«163977_j39032662786718_2_alg».proof.Proof.Gen.KernelIdeal
import proofs.«163977_j39032662786718_2_alg».proof.Proof.Gen.KernelIdeal.Skeleton
import proofs.«163977_j39032662786718_2_alg».proof.Proof.Gen.KernelIdeal.Launch
import proofs.«163977_j39032662786718_2_alg».proof.Proof.Gen.KernelIdeal.Points
import proofs.«163977_j39032662786718_2_alg».proof.Proof.Gen.KernelIdeal.Frame
import proofs.«163977_j39032662786718_2_alg».proof.Proof.Gen.ReferenceIdeal
import proofs.«163977_j39032662786718_2_alg».proof.Proof.Gen.KernelIdeal.Value
import proofs.«163977_j39032662786718_2_alg».proof.Proof.Gen.ReferenceIdeal.Run
import proofs.«163977_j39032662786718_2_alg».proof.Proof.Gen.ReferenceIdeal.Read
import proofs.«163977_j39032662786718_2_alg».proof.Proof.Gen.Pre_finite_inputs
import proofs.«163977_j39032662786718_2_alg».proof.Proof.KernelValue
import proofs.«163977_j39032662786718_2_alg».proof.Proof.ReferenceValue
import proofs.«163977_j39032662786718_2_alg».proof.Proof.FiniteInputs
import Idealize.ShloMosaic.Adequacy
import Idealize.ShloMosaic.Init

noncomputable section

namespace Cert.Proof

open Idealize.ShloMosaic Idealize.ShloMosaic.TcCoe Idealize.SL.Sem Cert.KernelIdeal.Blocks

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the attention output of the (finite) arguments in their result arrays. -/
theorem algebraic : Cert.algebraic_KernelIdeal_ReferenceIdeal := by
  intro m ρ m' ρ' hpre hagree
  have hfin : ∀ c : Dev Cert.KernelIdeal.nD,
      Attn.IsReal (argQ m c) ∧ Attn.IsReal (argK m c) ∧ Attn.IsReal (argV m c) :=
    fun c => Attn.Fin.isReal_of_pre _ _ _ (hpre c)
  refine ⟨fun c => Attn.G (argQ m c) (argK m c) (argV m c), ?_, ?_⟩
  · exact (θ_run Cert.KernelIdeal.defs _ _).mono
      (fun r h c => ⟨(h c).1.trans (Cert.KernelIdeal.Whole.final m c (hfin c).1 (hfin c).2.1 (hfin c).2.2), (h c).2⟩)
      (Cert.KernelIdeal.Value.run_blocks m ρ)
  · refine (θ_run Cert.ReferenceIdeal.defs _ _).mono (fun r h c => ⟨?_, (h c).2⟩)
      (Cert.ReferenceIdeal.Value.run (F := Ideal) m' ρ')
    refine (h c).1.trans ?_
    rw [(hagree c).1, (hagree c).2.1, (hagree c).2.2]
    exact (Cert.ReferenceIdeal.Read.val_main_v16_eq _ _ _).trans
      (Attn.Ref.reference_eq _ _ _ (hfin c).1 (hfin c).2.1 (hfin c).2.2)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
